-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x1 .f32) (main_arg6 : FVec F S1 .f32) (main_arg7 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S5000x128 : Shape := ⟨2, ![5000, 128]⟩
abbrev S600000x128 : Shape := ⟨2, ![600000, 128]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩
abbrev S1x1 : Shape := ⟨2, ![1, 1]⟩
abbrev S2000 : Shape := ⟨1, ![2000]⟩

abbrev nBuf : Space → Nat
  | .hbm => 85
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S2x600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S600000, .f32⟩
  | .hbm, ⟨41, _⟩ => ⟨S50000, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x1, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S600000x1, .f32⟩
  | .hbm, ⟨73, _⟩ => ⟨S600000x128, .f32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S50000x1, .f32⟩
  | .hbm, ⟨80, _⟩ => ⟨S1x128, .f32⟩
  | .hbm, ⟨81, _⟩ => ⟨S1x128, .f32⟩
  | .hbm, ⟨82, _⟩ => ⟨S1x1, .f32⟩
  | .hbm, ⟨83, _⟩ => ⟨S50000x1, .f32⟩
  | .hbm, ⟨84, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x1, .f32⟩
  | .local _ .vmem, ⟨32, _⟩ => ⟨S2000x1, .f32⟩
  | .local _ .vmem, ⟨33, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem6_0 : DmaSem sig := 31
abbrev cc3_sem7_0 : DmaSem sig := 32
abbrev cc3_sem7_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S5000x128_S5000x128 : S5000x128.ShapeCasts S5000x128
  shapeCasts_S128x1_S1x128 : S128x1.ShapeCasts S1x128
  shapeCasts_S1_S1x1 : S1.ShapeCasts S1x1
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S50000x1_S50000 : S50000x1.ShapeCasts S50000
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S50000x1.size a
  hwx3_7 : ∀ i : grid3.Coords, EltTy.bits .f32 = 32 ∨ (Rect.block (s := S50000x1) S2000x1.size (cc3_transform_7 i) (hinb3_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v60) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S2000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x1, .f32⟩
  | 6 => ⟨S1, .f32⟩
  | 7 => ⟨S2x600000, .i32⟩
  | 8 => ⟨S1x600000, .i32⟩
  | 9 => ⟨S600000, .i32⟩
  | 10 => ⟨S1x600000, .i32⟩
  | 11 => ⟨S600000, .i32⟩
  | 12 => ⟨S50000x128, .f32⟩
  | 13 => ⟨S_, .f32⟩
  | 14 => ⟨S600000, .f32⟩
  | 15 => ⟨S_, .f32⟩
  | 16 => ⟨S50000, .f32⟩
  | 17 => ⟨S600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x1, .f32⟩
  | 52 => ⟨S600000x128, .f32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x600000, .i32⟩
  | 71 => ⟨S600000, .i32⟩
  | 72 => ⟨S1x600000, .i32⟩
  | 73 => ⟨S600000, .i32⟩
  | 74 => ⟨S50000x128, .f32⟩
  | 75 => ⟨S_, .f32⟩
  | 76 => ⟨S600000, .f32⟩
  | 77 => ⟨S_, .f32⟩
  | 78 => ⟨S50000, .f32⟩
  | 79 => ⟨S600000x1, .i32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S600000, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S600000x1, .f32⟩
  | 114 => ⟨S600000x128, .f32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000, .f32⟩
  | 121 => ⟨S50000x1, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x1, .f32⟩
  | 5 => ⟨S1x1, .f32⟩
  | 6 => ⟨S50000x1, .f32⟩
  | 7 => ⟨S50000x1, .f32⟩
  | 8 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call1_cst : Ref sig .tc := ⟨.hbm, 129, rfl⟩
abbrev main_call1_v0 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel's run with its result named. @main is eight segments: host operations, the first
  linear layer's matrix product, host operations (gather, scale, scatter-add over the edges), the fused
  first layer, the second matrix product, host operations, the fused second layer with the head, and the
  final reshape. Every weakly fair execution terminates, the arguments end as launched, and the result
  buffer ends at what the last boundary's contents hold for it: the fold of the segments from the launch
  memory. The other modules read that fold back, boundary by boundary.
-/
import proofs.«151680_j78194174591508_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates without a fault, the result buffer ends at the last boundary's contents, and
    the argument arrays end as launched. -/
theorem run_result : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KRun

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibMatProd.lean ====
/-
  The product of two matrices over the extended reals, entry by entry: entry (p, q) of A·B is the sum over k of
  A (p, k) · B (k, q). A band of consecutive rows of A·B is the product of that band of rows of A with the whole of B:
  each entry's sum runs over the same pairs of entries, so the two sums are equal term by term — no law of the
  extended reals is used, and nothing has to be finite.
-/
import Idealize.ShloMosaic.PureOps.Ideal.Laws
import Idealize.ShloMosaic.Lib.ValueIdx

noncomputable section

namespace Cert.LibMatProd

open Idealize.ShloMosaic Idealize.ShloMosaic.ValueIdx

/-- The matrix product `[a, K] × [K, b] → [a, b]` on the extended reals. -/
def mm {a K b : Nat} (A : (⟨2, ![a, K]⟩ : Shape).Idx → EReal) (B : (⟨2, ![K, b]⟩ : Shape).Idx → EReal) :
    (⟨2, ![a, b]⟩ : Shape).Idx → EReal :=
  fun j => ∑ k : Fin K, A (ix2 (j 0) k) * B (ix2 k (j 1))

theorem mm_apply {a K b : Nat} (A : (⟨2, ![a, K]⟩ : Shape).Idx → EReal) (B : (⟨2, ![K, b]⟩ : Shape).Idx → EReal)
    (j : (⟨2, ![a, b]⟩ : Shape).Idx) : mm A B j = ∑ k : Fin K, A (ix2 (j 0) k) * B (ix2 k (j 1)) := rfl

/-- An entry of a product of a band of rows equals the entry of the whole product it sits at: if row `y 0` of `X`
    is row `i 0` of `A`, and column `y 1` of `Y` is column `i 1` of `B`, the two sums have equal terms. -/
theorem mm_entry_congr {h n K b b' : Nat} (X : (⟨2, ![h, K]⟩ : Shape).Idx → EReal) (Y : (⟨2, ![K, b]⟩ : Shape).Idx → EReal)
    (A : (⟨2, ![n, K]⟩ : Shape).Idx → EReal) (B : (⟨2, ![K, b']⟩ : Shape).Idx → EReal)
    (y : (⟨2, ![h, b]⟩ : Shape).Idx) (i : (⟨2, ![n, b']⟩ : Shape).Idx)
    (hX : ∀ k : Fin K, X (ix2 (y 0) k) = A (ix2 (i 0) k))
    (hY : ∀ k : Fin K, Y (ix2 k (y 1)) = B (ix2 k (i 1))) :
    mm X Y y = mm A B i := by
  rw [mm_apply, mm_apply]
  exact Finset.sum_congr rfl fun k _ => by rw [hX k, hY k]

end Cert.LibMatProd

end
-- ==== Proof.Region0.lean ====
/-
  The first matrix product. The grid has ten points; point t loads rows 5000·t … 5000·t + 4999 of the node
  features and the whole 128 × 128 weight matrix, multiplies them into a zero accumulator and writes the
  product back as the same band of rows of the output. A band of rows of a product is the product of the band
  with the whole right factor, so every block written is a block of one whole-array matrix product, and the
  ten bands tile the 50000 rows: the output array ends holding the whole product.
-/
import proofs.«151680_j78194174591508_2_alg».proof.Proof.Gen.KernelIdeal.Frame
import proofs.«151680_j78194174591508_2_alg».proof.Proof.LibMatmul
import proofs.«151680_j78194174591508_2_alg».proof.Proof.LibMatProd
import Idealize.ShloMosaic.Lib.Pipeline.Value
import Idealize.ShloMosaic.Lib.ValueIdx

set_option maxRecDepth 16384

noncomputable section

namespace Cert.KernelIdeal.Lin0

open Cert.KernelIdeal Cert.KernelIdeal.Gen
open Idealize.ShloMosaic Idealize.ShloMosaic.TcCoe Idealize.ShloMosaic.ValueIdx Idealize.SL.Sem
open Idealize.ShloMosaic.Pipeline (Dat)
open Cert.LibMatProd

theorem zero_off : (![0, 0] : Fin 2 → Nat) = fun _ => 0 := funext fun a => by fin_cases a <;> rfl

/-- The body's stored value at an entry: the matrix product of the two loaded blocks (a change of float
    format is the identity on the extended reals, the accumulator starts at zero). -/
theorem pay_apply (x0 : Vec Ideal S5000x128 .f32) (x1 : Vec Ideal S128x128 .f32) (y : S5000x128.Idx) :
    k0_pay1 (F := Ideal) x0 x1 y = mm x0 x1 y := by
  unfold k0_pay1
  exact Cert.LibMatmul.matmul_zero_ix2 dot_S5000x128_S128x128_S5000x128_1_0_0_1_n_n none rfl rfl
    (fun j q => by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl)
    (fun j q => dot_S5000x128_S128x128_S5000x128_1_0_0_1_n_n.lhsIdx_val_of_single rfl j q)
    (fun j q => dot_S5000x128_S128x128_S5000x128_1_0_0_1_n_n.rhsIdx_val_of_single rfl j q)
    (fun j q => by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
    _ _ y

/-- The index maps over the grid: the feature block and the output block of point t are both band t; the
    weight block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is band t of the whole product. -/
theorem flushed_eq (c : Dev nD) (t : Fin cfg0.N) :
    (dat0 V c).flushed 2 t = ((cfg0.win 2).blk t).view.read (Elt Ideal) (mm (V c main_arg0) (V c main_arg1)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e0, e1, e2, e3, e4, e5⟩ := idx_facts t
  funext j
  show k0_pay1 (F := Ideal) (iblk0 V c 0 t) (iblk0 V c 1 t) j = mm (V c main_arg0) (V c main_arg1) (((cfg0.win 2).blk t).view.emb j)
  refine (pay_apply _ _ j).trans ?_
  refine mm_entry_congr _ _ _ _ _ _ (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg1 (((cfg0.win 1).blk t).view.emb (ix2 k (j 1))) = V c main_arg1 (ix2 k ((((cfg0.win 2).blk t).view.emb j) 1))
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The ten bands tile the rows: row r is in band r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < grid0.N; rw [N_0]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the region's two input arrays. -/
theorem final (c : Dev nD) : (dat0 V c).arrAt 2 cfg0.N = mm (V c main_arg0) (V c main_arg1) :=
  (dat0 V c).arrAt_eq_of_cover 2 (mm (V c main_arg0) (V c main_arg1)) (fun t _ => flushed_eq V c t) cover

end Cert.KernelIdeal.Lin0

end
-- ==== Proof.Spec.lean ====
/-
  The mathematics of the network, on the extended reals.

  A graph of 50000 nodes carries 128 features per node. One layer multiplies the features by a weight matrix,
  adds to every node the normalized sum of its in-neighbours' products (the aggregate, computed on the host by a
  gather, a scaling and a scatter-add over the 600000 edges), adds the node's own product scaled by the squared
  inverse root degree, the bias and the layer's input, and clamps at zero. The head is the inner product of a
  node's features with one column of weights, plus a bias.

  The aggregate and the degree scale are left abstract here: both programs compute them by the same host
  operations, and nothing below looks inside them.
-/
import proofs.«151680_j78194174591508_2_alg».proof.Proof.LibMatProd
import Idealize.ShloMosaic.PureOps.Ideal
import Idealize.ShloMosaic.Lib.ValueIdx

noncomputable section

namespace Cert.Gcn

open Idealize.ShloMosaic Idealize.ShloMosaic.ValueIdx

/-- Node features: 50000 nodes by 128 features. -/
abbrev Feat : Shape := ⟨2, ![50000, 128]⟩

/-- The zero every clamp compares with: the float word of +0, read as an extended real. -/
abbrev zeroWord : EReal := Ideal.ofBits .f32 0x00000000#32

/-- One layer after the matrix product: entry (p, k) is
    max (((agg(p,k) + xw(p,k) · d2(p)) + b(k)) + res(p,k)) 0. -/
def fuse (agg xw : Feat.Idx → EReal) (d2 : (⟨1, ![50000]⟩ : Shape).Idx → EReal)
    (b : (⟨1, ![128]⟩ : Shape).Idx → EReal) (res : Feat.Idx → EReal) : Feat.Idx → EReal :=
  fun i => max (((agg i + xw i * d2 (ix1 (i 0))) + b (ix1 (i 1))) + res i) zeroWord

theorem fuse_apply (agg xw : Feat.Idx → EReal) (d2 : (⟨1, ![50000]⟩ : Shape).Idx → EReal)
    (b : (⟨1, ![128]⟩ : Shape).Idx → EReal) (res : Feat.Idx → EReal) (p : Fin 50000) (k : Fin 128) :
    fuse agg xw d2 b res (ix2 p k)
      = max (((agg (ix2 p k) + xw (ix2 p k) * d2 (ix1 p)) + b (ix1 k)) + res (ix2 p k)) zeroWord := rfl

/-- The head, as a column: node p's value is (Σ_k h(p,k) · wh(k,0)) + bh(0). -/
def headCol (h : Feat.Idx → EReal) (wh : (⟨2, ![128, 1]⟩ : Shape).Idx → EReal)
    (bh : (⟨1, ![1]⟩ : Shape).Idx → EReal) : (⟨2, ![50000, 1]⟩ : Shape).Idx → EReal :=
  fun i => (∑ k : Fin 128, h (ix2 (i 0) k) * wh (ix2 k (0 : Fin 1))) + bh (ix1 (0 : Fin 1))

/-- One whole layer from its input: the matrix product, its aggregate, and the fused rest. -/
def layer (aggF : (Feat.Idx → EReal) → Feat.Idx → EReal) (d2 : (⟨1, ![50000]⟩ : Shape).Idx → EReal)
    (x : Feat.Idx → EReal) (w : (⟨2, ![128, 128]⟩ : Shape).Idx → EReal) (b : (⟨1, ![128]⟩ : Shape).Idx → EReal) :
    Feat.Idx → EReal :=
  fuse (aggF (Cert.LibMatProd.mm x w)) (Cert.LibMatProd.mm x w) d2 b x

/-- The network: two layers, then the head. -/
def net (aggF : (Feat.Idx → EReal) → Feat.Idx → EReal) (d2 : (⟨1, ![50000]⟩ : Shape).Idx → EReal)
    (x : Feat.Idx → EReal) (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (wh : (⟨2, ![128, 1]⟩ : Shape).Idx → EReal) (bh : (⟨1, ![1]⟩ : Shape).Idx → EReal) :
    (⟨2, ![50000, 1]⟩ : Shape).Idx → EReal :=
  headCol (layer aggF d2 (layer aggF d2 x w1 b1) w2 b2) wh bh

/-! ## The same functions over the layouts the fused kernels are handed

The fused kernels take the degree scale as a column [50000, 1], the bias and the head's weights as rows [1, 128],
and the head's bias as a [1, 1] array, and the second one returns a column [50000, 1]. -/

/-- `fuse` with the degree scale a column and the bias a row. -/
def fuseCols (agg xw : Feat.Idx → EReal) (d2c : (⟨2, ![50000, 1]⟩ : Shape).Idx → EReal)
    (br : (⟨2, ![1, 128]⟩ : Shape).Idx → EReal) (res : Feat.Idx → EReal) : Feat.Idx → EReal :=
  fun i => max (((agg i + xw i * d2c (ix2 (i 0) (0 : Fin 1))) + br (ix2 (0 : Fin 1) (i 1))) + res i) zeroWord

/-- `headCol` with the weights a row and the bias a [1, 1] array. -/
def headCols (h : Feat.Idx → EReal) (whr : (⟨2, ![1, 128]⟩ : Shape).Idx → EReal)
    (bh11 : (⟨2, ![1, 1]⟩ : Shape).Idx → EReal) : (⟨2, ![50000, 1]⟩ : Shape).Idx → EReal :=
  fun i => (∑ k : Fin 128, h (ix2 (i 0) k) * whr (ix2 (0 : Fin 1) k)) + bh11 (ix2 (0 : Fin 1) (0 : Fin 1))

/-- When the column and the row hold the vectors' entries, `fuseCols` is `fuse`. -/
theorem fuseCols_eq (agg xw : Feat.Idx → EReal) (d2c : (⟨2, ![50000, 1]⟩ : Shape).Idx → EReal)
    (br : (⟨2, ![1, 128]⟩ : Shape).Idx → EReal) (res : Feat.Idx → EReal)
    (d2 : (⟨1, ![50000]⟩ : Shape).Idx → EReal) (b : (⟨1, ![128]⟩ : Shape).Idx → EReal)
    (hd : ∀ p : Fin 50000, d2c (ix2 p (0 : Fin 1)) = d2 (ix1 p)) (hb : ∀ k : Fin 128, br (ix2 (0 : Fin 1) k) = b (ix1 k)) :
    fuseCols agg xw d2c br res = fuse agg xw d2 b res := by
  funext i
  obtain ⟨p, k, rfl⟩ : ∃ (p : Fin 50000) (k : Fin 128), i = ix2 p k := ⟨i 0, i 1, eq_ix2 i⟩
  show max (((agg (ix2 p k) + xw (ix2 p k) * d2c (ix2 p (0 : Fin 1))) + br (ix2 (0 : Fin 1) k)) + res (ix2 p k)) zeroWord
    = max (((agg (ix2 p k) + xw (ix2 p k) * d2 (ix1 p)) + b (ix1 k)) + res (ix2 p k)) zeroWord
  rw [hd, hb]

/-- When the row holds the weight column's entries and the [1, 1] array the bias, `headCols` is `headCol`. -/
theorem headCols_eq (h : Feat.Idx → EReal) (whr : (⟨2, ![1, 128]⟩ : Shape).Idx → EReal)
    (bh11 : (⟨2, ![1, 1]⟩ : Shape).Idx → EReal) (wh : (⟨2, ![128, 1]⟩ : Shape).Idx → EReal)
    (bh : (⟨1, ![1]⟩ : Shape).Idx → EReal)
    (hw : ∀ k : Fin 128, whr (ix2 (0 : Fin 1) k) = wh (ix2 k (0 : Fin 1)))
    (hb : bh11 (ix2 (0 : Fin 1) (0 : Fin 1)) = bh (ix1 (0 : Fin 1))) :
    headCols h whr bh11 = headCol h wh bh := by
  funext i
  show (∑ k : Fin 128, h (ix2 (i 0) k) * whr (ix2 (0 : Fin 1) k)) + bh11 (ix2 (0 : Fin 1) (0 : Fin 1))
    = (∑ k : Fin 128, h (ix2 (i 0) k) * wh (ix2 k (0 : Fin 1))) + bh (ix1 (0 : Fin 1))
  rw [hb]
  exact congrArg (· + bh (ix1 (0 : Fin 1))) (Finset.sum_congr rfl fun k _ => by rw [hw k])

end Cert.Gcn

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.Region1.lean ====
/-
  The fused first layer. The grid has 25 points; point t loads rows 2000·t … 2000·t + 1999 of the aggregate,
  of the matrix product, of the degree-scale column and of the layer's input, and the whole bias row, and
  writes back the same rows of max (((agg + xw · d2) + b) + res) 0. Every entry depends only on the entries
  of its own row and column, so each block written is a block of one whole-array function, and the 25 bands
  tile the 50000 rows.
-/
import proofs.«151680_j78194174591508_2_alg».proof.Proof.Gen.KernelIdeal.Frame
import proofs.«151680_j78194174591508_2_alg».proof.Proof.Spec
import proofs.«151680_j78194174591508_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Fuse1

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

theorem zero_off : (![0, 0] : Fin 2 → Nat) = fun _ => 0 := funext fun a => by fin_cases a <;> rfl

/-- The body's stored value at entry (p, q) of the block: the column is read at row p, the bias row at column q. -/
theorem pay_ix2 (x0 x1 : Vec Ideal S2000x128 .f32) (x2 : Vec Ideal S2000x1 .f32) (x3 : Vec Ideal S1x128 .f32)
    (x4 : Vec Ideal S2000x128 .f32) (p : Fin 2000) (q : Fin 128) :
    k1_pay1 (F := Ideal) x0 x1 x2 x3 x4 (ix2 p q)
      = max (((x0 (ix2 p q) + x1 (ix2 p q) * x2 (ix2 p (0 : Fin 1))) + x3 (ix2 (0 : Fin 1) q)) + x4 (ix2 p q)) zeroWord := by
  unfold k1_pay1
  simp only [shapeCast_self]
  show max (((x0 (ix2 p q) + x1 (ix2 p q) * broadcastTo S2000x128 x2 broadcasts_S2000x1_S2000x128 (ix2 p q))
      + broadcastTo S2000x128 x3 broadcasts_S1x128_S2000x128 (ix2 p q)) + x4 (ix2 p q)) zeroWord = _
  rw [broadcastTo_a1_ab_apply, broadcastTo_1b_ab_apply]

theorem pay_apply (x0 x1 : Vec Ideal S2000x128 .f32) (x2 : Vec Ideal S2000x1 .f32) (x3 : Vec Ideal S1x128 .f32)
    (x4 : Vec Ideal S2000x128 .f32) (y : S2000x128.Idx) :
    k1_pay1 (F := Ideal) x0 x1 x2 x3 x4 y
      = max (((x0 y + x1 y * x2 (ix2 (y 0) (0 : Fin 1))) + x3 (ix2 (0 : Fin 1) (y 1))) + x4 y) zeroWord := by
  obtain ⟨p, q, rfl⟩ : ∃ (p : Fin 2000) (q : Fin 128), y = ix2 p q := ⟨y 0, y 1, eq_ix2 y⟩
  exact pay_ix2 x0 x1 x2 x3 x4 p q

/-- The index maps over the grid: every row-banded window of point t is band t; the bias row is whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point t writes back is band t of the whole-array layer function. -/
theorem flushed_eq (c : Dev nD) (t : Fin cfg1.N) :
    (dat1 V c).flushed 5 t = ((cfg1.win 5).blk t).view.read (Elt Ideal)
      (fuseCols (V c main_v40) (V c main_v27) (V c main_v41) (V c main_v42) (V c main_arg0)) := by
  show (cfg1.win 5).cut (grid1.coords t) ((dat1 V c).after 5 t) = _
  rw [after1_5]
  unfold out1_5
  rw [View.canon_unit_zero zero_off]
  simp only [View.ld_unit_zero (S := S2000x128) zero_off, View.ld_unit_zero (S := S2000x1) zero_off, View.ld_unit_zero (S := S1x128) zero_off]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = fuseCols (V c main_v40) (V c main_v27) (V c main_v41) (V c main_v42) (V c main_arg0) (((cfg1.win 5).blk t).view.emb j)
  refine (pay_apply _ _ _ _ _ j).trans ?_
  have h0 : iblk1 V c 0 t j = V c main_v40 (((cfg1.win 5).blk t).view.emb j) := by
    show V c main_v40 (((cfg1.win 0).blk t).view.emb j) = _
    refine congrArg (V c main_v40) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h1 : iblk1 V c 1 t j = V c main_v27 (((cfg1.win 5).blk t).view.emb j) := by
    show V c main_v27 (((cfg1.win 1).blk t).view.emb j) = _
    refine congrArg (V c main_v27) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * (j 1).val = win1_5.index t (1 : Fin 2) * 128 + 1 * (j 1).val; omega
  have h2 : iblk1 V c 2 t (ix2 (j 0) (0 : Fin 1)) = V c main_v41 (ix2 ((((cfg1.win 5).blk t).view.emb j) 0) (0 : Fin 1)) := by
    show V c main_v41 (((cfg1.win 2).blk t).view.emb (ix2 (j 0) (0 : Fin 1))) = _
    refine congrArg (V c main_v41) (funext fun a => Fin.ext ?_)
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 1 + 1 * 0 = 0; omega
  have h3 : iblk1 V c 3 t (ix2 (0 : Fin 1) (j 1)) = V c main_v42 (ix2 (0 : Fin 1) ((((cfg1.win 5).blk t).view.emb j) 1)) := by
    show V c main_v42 (((cfg1.win 3).blk t).view.emb (ix2 (0 : Fin 1) (j 1))) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : iblk1 V c 4 t j = V c main_arg0 (((cfg1.win 5).blk t).view.emb j) := by
    show V c main_arg0 (((cfg1.win 4).blk t).view.emb j) = _
    refine congrArg (V c main_arg0) (funext fun a => Fin.ext ?_)
    match a with
    | ⟨0, _⟩ => show win1_4.index t (0 : Fin 2) * 2000 + 1 * (j 0).val = win1_5.index t (0 : Fin 2) * 2000 + 1 * (j 0).val; omega
    | ⟨1, _⟩ => show win1_4.index t (1 : Fin 2) * 128 + 1 * (j 1).val = win1_5.index t (1 : Fin 2) * 128 + 1 * (j 1).val; omega
  rw [h0, h1, h2, h3, h4]
  rfl

/-- An index of the output is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- The 25 bands tile the rows: row r is in band r / 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < grid1.N; rw [N_1]; omega⟩
  obtain ⟨e00, e01, e10, e11, e20, e21, e30, e31, e40, e41, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region: the layer function of the region's five input arrays. -/
theorem final (c : Dev nD) : (dat1 V c).arrAt 5 cfg1.N
    = fuseCols (V c main_v40) (V c main_v27) (V c main_v41) (V c main_v42) (V c main_arg0) :=
  (dat1 V c).arrAt_eq_of_cover 5 _ (fun t _ => flushed_eq V c t) cover

end Cert.KernelIdeal.Fuse1

end
-- ==== Proof.Region2.lean ====
/-
  The second matrix product, of the first layer's output with the second weight matrix. The grid has ten
  points; point t loads rows 5000·t … 5000·t + 4999 of the layer's
  output and the whole 128 × 128 weight matrix, multiplies them into a zero accumulator and writes the
  product back as the same band of rows of the output. A band of rows of a product is the product of the band
  with the whole right factor, so every block written is a block of one whole-array matrix product, and the
  ten bands tile the 50000 rows: the output array ends holding the whole product.
-/
import proofs.«151680_j78194174591508_2_alg».proof.Proof.Gen.KernelIdeal.Frame
import proofs.«151680_j78194174591508_2_alg».proof.Proof.LibMatmul
import proofs.«151680_j78194174591508_2_alg».proof.Proof.LibMatProd
import Idealize.ShloMosaic.Lib.Pipeline.Value
import Idealize.ShloMosaic.Lib.ValueIdx

set_option maxRecDepth 16384

noncomputable section

namespace Cert.KernelIdeal.Lin2

open Cert.KernelIdeal Cert.KernelIdeal.Gen
open Idealize.ShloMosaic Idealize.ShloMosaic.TcCoe Idealize.ShloMosaic.ValueIdx Idealize.SL.Sem
open Idealize.ShloMosaic.Pipeline (Dat)
open Cert.LibMatProd

theorem zero_off : (![0, 0] : Fin 2 → Nat) = fun _ => 0 := funext fun a => by fin_cases a <;> rfl

/-- The body's stored value at an entry: the matrix product of the two loaded blocks (a change of float
    format is the identity on the extended reals, the accumulator starts at zero). -/
theorem pay_apply (x0 : Vec Ideal S5000x128 .f32) (x1 : Vec Ideal S128x128 .f32) (y : S5000x128.Idx) :
    k2_pay1 (F := Ideal) x0 x1 y = mm x0 x1 y := by
  unfold k2_pay1
  rw [shapeCast_self]
  exact Cert.LibMatmul.matmul_zero_ix2 dot_S5000x128_S128x128_S5000x128_1_0_0_1_n_n none rfl rfl
    (fun j q => by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl)
    (fun j q => dot_S5000x128_S128x128_S5000x128_1_0_0_1_n_n.lhsIdx_val_of_single rfl j q)
    (fun j q => dot_S5000x128_S128x128_S5000x128_1_0_0_1_n_n.rhsIdx_val_of_single rfl j q)
    (fun j q => by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
    _ _ y

/-- The index maps over the grid: the feature block and the output block of point t are both band t; the
    weight block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is band t of the whole product. -/
theorem flushed_eq (c : Dev nD) (t : Fin cfg2.N) :
    (dat2 V c).flushed 2 t = ((cfg2.win 2).blk t).view.read (Elt Ideal) (mm (V c main_v43) (V c main_arg3)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  obtain ⟨e0, e1, e2, e3, e4, e5⟩ := idx_facts t
  funext j
  show k2_pay1 (F := Ideal) (iblk2 V c 0 t) (iblk2 V c 1 t) j = mm (V c main_v43) (V c main_arg3) (((cfg2.win 2).blk t).view.emb j)
  refine (pay_apply _ _ j).trans ?_
  refine mm_entry_congr _ _ _ _ _ _ (fun k => ?_) (fun k => ?_)
  · show V c main_v43 (((cfg2.win 0).blk t).view.emb (ix2 (j 0) k)) = V c main_v43 (ix2 ((((cfg2.win 2).blk t).view.emb j) 0) k)
    refine congrArg (V c main_v43) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg3 (((cfg2.win 1).blk t).view.emb (ix2 k (j 1))) = V c main_arg3 (ix2 k ((((cfg2.win 2).blk t).view.emb j) 1))
    refine congrArg (V c main_arg3) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- The ten bands tile the rows: row r is in band r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by show (i 0).val / 5000 < grid2.N; rw [N_2]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole product of the region's two input arrays. -/
theorem final (c : Dev nD) : (dat2 V c).arrAt 2 cfg2.N = mm (V c main_v43) (V c main_arg3) :=
  (dat2 V c).arrAt_eq_of_cover 2 (mm (V c main_v43) (V c main_arg3)) (fun t _ => flushed_eq V c t) cover

end Cert.KernelIdeal.Lin2

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibSixCols.lean ====
/-
  Six columns side by side, and one entry spread over a matrix.

  Six [a, 1] columns concatenated along axis 1 give an [a, 6] matrix whose column b is the b-th column: entry (p, b)
  is that column's entry (p, 0). A [1, 1] array broadcast to [a, b] reads its one entry everywhere.
-/
import Idealize.ShloMosaic.Lib.Pipeline.Value
import Idealize.ShloMosaic.Lib.ValueIdx

noncomputable section

namespace Cert.LibSixCols

open Idealize.ShloMosaic Idealize.ShloMosaic.ValueIdx

variable {α : Type}

/-- A [1, 1] array broadcast to [a, b] reads, at (p, c), its one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

section Six
variable {a : ℕ} (c0 c1 c2 c3 c4 c5 : (⟨2, ![a, 1]⟩ : Shape).Idx → α)
  (h : Shape.Concatenates [⟨2, ![a, 1]⟩, ⟨2, ![a, 1]⟩, ⟨2, ![a, 1]⟩, ⟨2, ![a, 1]⟩, ⟨2, ![a, 1]⟩, ⟨2, ![a, 1]⟩] ⟨2, ![a, 6]⟩ 1)

/-- Column k of the concatenation (k < 6, with the k-th piece named) at row p is that piece's entry (p, 0). -/
theorem concat6_col (p : Fin a) (b : Fin 6) (k : ℕ) (hk : k < 6) (hb : b.val = k) (x : (⟨2, ![a, 1]⟩ : Shape).Idx → α)
    (hx : ([⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩, ⟨⟨2, ![a, 1]⟩, c5⟩] : List ((s : Shape) × (s.Idx → α)))[k]'(by simpa using hk) = ⟨⟨2, ![a, 1]⟩, x⟩) :
    concatenate ⟨2, ![a, 6]⟩ 1 [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩, ⟨⟨2, ![a, 1]⟩, c5⟩] h (ix2 p b) = x (ix2 p (0 : Fin 1)) := by
  refine concatenate_apply_piece 1 [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩, ⟨⟨2, ![a, 1]⟩, c5⟩] h (ix2 p b) k (by simpa using hk) _ x hx rfl k ?_ (ix2 p (0 : Fin 1))
    (fun ax hax => by
      match ax with
      | ⟨0, _⟩ => rfl
      | ⟨1, _⟩ => exact absurd rfl hax)
    (by show k + 0 = b.val; omega)
  interval_cases k <;> simp

end Six

end Cert.LibSixCols

end
-- ==== Proof.Region3.lean ====
/-
  The fused second layer with the head. The grid has 25 points; point t loads rows 2000·t … 2000·t + 1999 of the
  aggregate, of the matrix product, of the degree-scale column and of the layer's input, and the whole bias row,
  head-weight row and head bias; it forms max (((agg + xw · d2) + b) + res) 0 for its rows, multiplies each row
  by the weight row, sums along the row, adds the head bias, and writes the 2000 sums back as rows of a column
  [50000, 1]. A row's sum depends only on that row, so each block written is a block of one whole-array function,
  and the 25 bands tile the 50000 rows.
-/
import proofs.«151680_j78194174591508_2_alg».proof.Proof.Gen.KernelIdeal.Frame
import proofs.«151680_j78194174591508_2_alg».proof.Proof.Spec
import proofs.«151680_j78194174591508_2_alg».proof.Proof.LibColumn
import proofs.«151680_j78194174591508_2_alg».proof.Proof.LibRowSum
import proofs.«151680_j78194174591508_2_alg».proof.Proof.LibSixCols
import Idealize.ShloMosaic.Lib.Pipeline.Value
import Idealize.ShloMosaic.Lib.ValueIdx
import Idealize.ShloMosaic.Lib.ValueLayout

set_option maxRecDepth 16384

noncomputable section

namespace Cert.KernelIdeal.Fuse3

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

theorem zero_off : (![0, 0] : Fin 2 → Nat) = fun _ => 0 := funext fun a => by fin_cases a <;> rfl

/-- The body's stored value at row p of the block's column: the row of the clamped layer value times the weight
    row, summed, plus the head bias. -/
theorem pay_ix2 (x0 x1 : Vec Ideal S2000x128 .f32) (x2 : Vec Ideal S2000x1 .f32) (x3 : Vec Ideal S1x128 .f32)
    (x4 : Vec Ideal S2000x128 .f32) (x5 : Vec Ideal S1x128 .f32) (x6 : Vec Ideal S1x1 .f32) (p : Fin 2000) (u : Fin 1) :
    k3_pay1 (F := Ideal) x0 x1 x2 x3 x4 x5 x6 (ix2 p u)
      = (∑ k : Fin 128, max (((x0 (ix2 p k) + x1 (ix2 p k) * x2 (ix2 p (0 : Fin 1))) + x3 (ix2 (0 : Fin 1) k)) + x4 (ix2 p k)) zeroWord
          * x5 (ix2 (0 : Fin 1) k)) + x6 (ix2 (0 : Fin 1) (0 : Fin 1)) := by
  unfold k3_pay1
  simp only [shapeCast_self]
  rw [addf_apply, Idealize.ShloMosaic.ValueIdx.shapeCast_a_a1_apply]
  refine congrArg₂ (· + ·) ((Cert.LibRowSum.multiReduction_add_row _ _ _ _ _ p).trans ?_)
    (Cert.LibSixCols.broadcastTo_11_ab_apply x6 _ p u)
  refine Finset.sum_congr rfl fun k _ => ?_
  rw [mulf_apply]
  show _ * broadcastTo S2000x128 x5 broadcasts_S1x128_S2000x128 (ix2 p k) = _
  refine congrArg₂ (· * ·) ?_ (broadcastTo_1b_ab_apply x5 _ p k)
  show max (((x0 (ix2 p k) + x1 (ix2 p k) * broadcastTo S2000x128 x2 broadcasts_S2000x1_S2000x128 (ix2 p k))
      + broadcastTo S2000x128 x3 broadcasts_S1x128_S2000x128 (ix2 p k)) + x4 (ix2 p k)) zeroWord = _
  rw [broadcastTo_a1_ab_apply, broadcastTo_1b_ab_apply]

theorem pay_apply (x0 x1 : Vec Ideal S2000x128 .f32) (x2 : Vec Ideal S2000x1 .f32) (x3 : Vec Ideal S1x128 .f32)
    (x4 : Vec Ideal S2000x128 .f32) (x5 : Vec Ideal S1x128 .f32) (x6 : Vec Ideal S1x1 .f32) (y : S2000x1.Idx) :
    k3_pay1 (F := Ideal) x0 x1 x2 x3 x4 x5 x6 y
      = (∑ k : Fin 128, max (((x0 (ix2 (y 0) k) + x1 (ix2 (y 0) k) * x2 (ix2 (y 0) (0 : Fin 1))) + x3 (ix2 (0 : Fin 1) k)) + x4 (ix2 (y 0) k)) zeroWord
          * x5 (ix2 (0 : Fin 1) k)) + x6 (ix2 (0 : Fin 1) (0 : Fin 1)) := by
  obtain ⟨p, u, rfl⟩ : ∃ (p : Fin 2000) (u : Fin 1), y = ix2 p u := ⟨y 0, y 1, eq_ix2 y⟩
  exact pay_ix2 x0 x1 x2 x3 x4 x5 x6 p u

/-- The index maps over the grid: every row-banded window of point t is band t; the rows and the [1, 1] array
    are whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- Row r of point t's aggregate block is row 2000·t + r of the aggregate. -/
theorem in0 (c : Dev nD) (t : Fin cfg3.N) (j : S2000x1.Idx) (k : Fin 128) :
    iblk3 V c 0 t (ix2 (j 0) k) = V c main_v57 (ix2 ((((cfg3.win 7).blk t).view.emb j) 0) k) := by
  obtain ⟨e00, e01, e10, e11, e20, e21, e30, e31, e40, e41, e50, e51, e60, e61, e70, e71⟩ := idx_facts t
  show V c main_v57 (((cfg3.win 0).blk t).view.emb (ix2 (j 0) k)) = _
  refine congrArg (V c main_v57) (funext fun a => Fin.ext ?_)
  match a with
  | ⟨0, _⟩ => show win3_0.index t (0 : Fin 2) * 2000 + 1 * (j 0).val = win3_7.index t (0 : Fin 2) * 2000 + 1 * (j 0).val; omega
  | ⟨1, _⟩ => show win3_0.index t (1 : Fin 2) * 128 + 1 * k.val = k.val; omega

/-- The same for the matrix product. -/
theorem in1 (c : Dev nD) (t : Fin cfg3.N) (j : S2000x1.Idx) (k : Fin 128) :
    iblk3 V c 1 t (ix2 (j 0) k) = V c main_v44 (ix2 ((((cfg3.win 7).blk t).view.emb j) 0) k) := by
  obtain ⟨e00, e01, e10, e11, e20, e21, e30, e31, e40, e41, e50, e51, e60, e61, e70, e71⟩ := idx_facts t
  show V c main_v44 (((cfg3.win 1).blk t).view.emb (ix2 (j 0) k)) = _
  refine congrArg (V c main_v44) (funext fun a => Fin.ext ?_)
  match a with
  | ⟨0, _⟩ => show win3_1.index t (0 : Fin 2) * 2000 + 1 * (j 0).val = win3_7.index t (0 : Fin 2) * 2000 + 1 * (j 0).val; omega
  | ⟨1, _⟩ => show win3_1.index t (1 : Fin 2) * 128 + 1 * k.val = k.val; omega

/-- The same for the degree-scale column. -/
theorem in2 (c : Dev nD) (t : Fin cfg3.N) (j : S2000x1.Idx) :
    iblk3 V c 2 t (ix2 (j 0) (0 : Fin 1)) = V c main_v58 (ix2 ((((cfg3.win 7).blk t).view.emb j) 0) (0 : Fin 1)) := by
  obtain ⟨e00, e01, e10, e11, e20, e21, e30, e31, e40, e41, e50, e51, e60, e61, e70, e71⟩ := idx_facts t
  show V c main_v58 (((cfg3.win 2).blk t).view.emb (ix2 (j 0) (0 : Fin 1))) = _
  refine congrArg (V c main_v58) (funext fun a => Fin.ext ?_)
  match a with
  | ⟨0, _⟩ => show win3_2.index t (0 : Fin 2) * 2000 + 1 * (j 0).val = win3_7.index t (0 : Fin 2) * 2000 + 1 * (j 0).val; omega
  | ⟨1, _⟩ => show win3_2.index t (1 : Fin 2) * 1 + 1 * 0 = 0; omega

/-- The bias row's block is the whole row. -/
theorem in3 (c : Dev nD) (t : Fin cfg3.N) (j : S2000x1.Idx) (k : Fin 128) :
    iblk3 V c 3 t (ix2 (0 : Fin 1) k) = V c main_v59 (ix2 (0 : Fin 1) k) := by
  obtain ⟨e00, e01, e10, e11, e20, e21, e30, e31, e40, e41, e50, e51, e60, e61, e70, e71⟩ := idx_facts t
  show V c main_v59 (((cfg3.win 3).blk t).view.emb (ix2 (0 : Fin 1) k)) = _
  refine congrArg (V c main_v59) (funext fun a => Fin.ext ?_)
  match a with
  | ⟨0, _⟩ => show win3_3.index t (0 : Fin 2) * 1 + 1 * 0 = 0; omega
  | ⟨1, _⟩ => show win3_3.index t (1 : Fin 2) * 128 + 1 * k.val = k.val; omega

/-- Row r of point t's block of the layer's input is row 2000·t + r of the input. -/
theorem in4 (c : Dev nD) (t : Fin cfg3.N) (j : S2000x1.Idx) (k : Fin 128) :
    iblk3 V c 4 t (ix2 (j 0) k) = V c main_v43 (ix2 ((((cfg3.win 7).blk t).view.emb j) 0) k) := by
  obtain ⟨e00, e01, e10, e11, e20, e21, e30, e31, e40, e41, e50, e51, e60, e61, e70, e71⟩ := idx_facts t
  show V c main_v43 (((cfg3.win 4).blk t).view.emb (ix2 (j 0) k)) = _
  refine congrArg (V c main_v43) (funext fun a => Fin.ext ?_)
  match a with
  | ⟨0, _⟩ => show win3_4.index t (0 : Fin 2) * 2000 + 1 * (j 0).val = win3_7.index t (0 : Fin 2) * 2000 + 1 * (j 0).val; omega
  | ⟨1, _⟩ => show win3_4.index t (1 : Fin 2) * 128 + 1 * k.val = k.val; omega

/-- The head-weight row's block is the whole row. -/
theorem in5 (c : Dev nD) (t : Fin cfg3.N) (j : S2000x1.Idx) (k : Fin 128) :
    iblk3 V c 5 t (ix2 (0 : Fin 1) k) = V c main_v60 (ix2 (0 : Fin 1) k) := by
  obtain ⟨e00, e01, e10, e11, e20, e21, e30, e31, e40, e41, e50, e51, e60, e61, e70, e71⟩ := idx_facts t
  show V c main_v60 (((cfg3.win 5).blk t).view.emb (ix2 (0 : Fin 1) k)) = _
  refine congrArg (V c main_v60) (funext fun a => Fin.ext ?_)
  match a with
  | ⟨0, _⟩ => show win3_5.index t (0 : Fin 2) * 1 + 1 * 0 = 0; omega
  | ⟨1, _⟩ => show win3_5.index t (1 : Fin 2) * 128 + 1 * k.val = k.val; omega

/-- The head bias's block is the whole [1, 1] array. -/
theorem in6 (c : Dev nD) (t : Fin cfg3.N) (j : S2000x1.Idx) :
    iblk3 V c 6 t (ix2 (0 : Fin 1) (0 : Fin 1)) = V c main_v61 (ix2 (0 : Fin 1) (0 : Fin 1)) := by
  obtain ⟨e00, e01, e10, e11, e20, e21, e30, e31, e40, e41, e50, e51, e60, e61, e70, e71⟩ := idx_facts t
  show V c main_v61 (((cfg3.win 6).blk t).view.emb (ix2 (0 : Fin 1) (0 : Fin 1))) = _
  refine congrArg (V c main_v61) (funext fun a => Fin.ext ?_)
  match a with
  | ⟨0, _⟩ => show win3_6.index t (0 : Fin 2) * 1 + 1 * 0 = 0; omega
  | ⟨1, _⟩ => show win3_6.index t (1 : Fin 2) * 1 + 1 * 0 = 0; omega

/-- What point t writes back is band t of the whole-array head function. -/
theorem flushed_eq (c : Dev nD) (t : Fin cfg3.N) :
    (dat3 V c).flushed 7 t = ((cfg3.win 7).blk t).view.read (Elt Ideal)
      (headCols (fuseCols (V c main_v57) (V c main_v44) (V c main_v58) (V c main_v59) (V c main_v43)) (V c main_v60) (V c main_v61)) := by
  show (cfg3.win 7).cut (grid3.coords t) ((dat3 V c).after 7 t) = _
  rw [after3_7]
  unfold out3_7
  rw [View.canon_unit_zero zero_off]
  simp only [View.ld_unit_zero (S := S2000x128) zero_off, View.ld_unit_zero (S := S2000x1) zero_off, View.ld_unit_zero (S := S1x128) zero_off, View.ld_unit_zero (S := S1x1) zero_off]
  funext j
  show k3_pay1 (F := Ideal) (iblk3 V c 0 t) (iblk3 V c 1 t) (iblk3 V c 2 t) (iblk3 V c 3 t) (iblk3 V c 4 t) (iblk3 V c 5 t) (iblk3 V c 6 t) j
    = headCols (fuseCols (V c main_v57) (V c main_v44) (V c main_v58) (V c main_v59) (V c main_v43)) (V c main_v60) (V c main_v61) (((cfg3.win 7).blk t).view.emb j)
  refine (pay_apply _ _ _ _ _ _ _ j).trans ?_
  refine congrArg₂ (· + ·) (Finset.sum_congr rfl fun k _ => ?_) (in6 V c t j)
  rw [in0 V c t j k, in1 V c t j k, in2 V c t j, in3 V c t j k, in4 V c t j k, in5 V c t j k]
  rfl

/-- An index of the output column is in point t's block iff each coordinate is in the block's range on its axis. -/
theorem mem_blk (t : Fin cfg3.N) (i : S50000x1.Idx) :
    i ∈ ((cfg3.win 7).blk t).view.set ↔ ∀ a : Fin 2, win3_7.index t a * S2000x1.size a ≤ (i a).val ∧ (i a).val < win3_7.index t a * S2000x1.size a + S2000x1.size a := by
  show i ∈ ((View.whole main_v62).slice (win3_7.rect t)).set ↔ _
  rw [View.set_slice_whole, Rect.mem_set_unit]
  exact Iff.rfl

/-- The 25 bands tile the rows: row r is in band r / 2000. -/
theorem cover (i : S50000x1.Idx) : ∃ t : Fin cfg3.N, (cfg3.win 7).flush t = true ∧ i ∈ ((cfg3.win 7).blk t).view.set := by
  have hi0 : (i 0).val < 50000 := (i 0).isLt
  have hi1 : (i 1).val < 1 := (i 1).isLt
  let t : Fin cfg3.N := ⟨(i 0).val / 2000, by show (i 0).val / 2000 < grid3.N; rw [N_3]; omega⟩
  obtain ⟨e00, e01, e10, e11, e20, e21, e30, e31, e40, e41, e50, e51, e60, e61, e70, e71⟩ := idx_facts t
  have ht : t.val = (i 0).val / 2000 := rfl
  refine ⟨t, flush3_7 t, ?_⟩
  rw [mem_blk]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 1 ≤ (i 1).val ∧ (i 1).val < win3_7.index t (1 : Fin 2) * 1 + 1; omega

/-- The output column after the region: the head function of the region's seven input arrays. -/
theorem final (c : Dev nD) : (dat3 V c).arrAt 7 cfg3.N
    = headCols (fuseCols (V c main_v57) (V c main_v44) (V c main_v58) (V c main_v59) (V c main_v43)) (V c main_v60) (V c main_v61) :=
  (dat3 V c).arrAt_eq_of_cover 7 _ (fun t _ => flushed_eq V c t) cover

end Cert.KernelIdeal.Fuse3

end
-- ==== Proof.RefSpec.lean ====
/-
  The reference, read as the network of the specification. Its host program is the two layers and the head in
  plain array operations: each matrix product a sum over the 128 features, each layer
  max (((agg + xw · d2) + b) + res) 0 entry by entry (the degree scale and the bias reach an entry through
  broadcasts that read row p of the one and column k of the other), the head a sum over the features plus the
  bias, laid out as a column and flattened at the end. The aggregate and the degree scale stay the host's own
  gather / scatter-add terms over the edge list.
-/
import proofs.«151680_j78194174591508_2_alg».proof.Proof.Gen.ReferenceIdeal.Read
import proofs.«151680_j78194174591508_2_alg».proof.Proof.Spec
import Idealize.ShloMosaic.Lib.ValueIdx

set_option maxRecDepth 16384

noncomputable section

namespace Cert.ReferenceIdeal.RefNet

open Cert.ReferenceIdeal Cert.ReferenceIdeal.Gen Cert.ReferenceIdeal.Read
open Idealize.ShloMosaic Idealize.ShloMosaic.TcCoe Idealize.ShloMosaic.ValueIdx Idealize.SL.Sem
open Cert.Gcn Cert.LibMatProd

/-- The aggregate of a feature array over the edge list: rows gathered at the edges' sources, scaled by the
    edges' normalization, scatter-added at the edges' destinations into zeros. -/
def agg (xw : (⟨S50000x128, .f32⟩ : BufTy).Contents (Elt Ideal)) (x7 : (⟨S2x600000, .i32⟩ : BufTy).Contents (Elt Ideal)) : (⟨S50000x128, .f32⟩ : BufTy).Contents (Elt Ideal) :=
  Host.scatterAdd (F := Ideal) (φ := .f32) scatter_S50000x128_S600000x1_S600000x128_1_0_0_1 (val_main_v37 (F := Ideal)) (val_main_v38 (F := Ideal) x7)
    (mulf (F := Ideal) (φ := .f32) (Host.gather (α := Ideal .f32) gather_S50000x128_S600000x1_S600000x128_1_0_n_n_0_1_1128 xw (val_main_v32 (F := Ideal) x7)) (val_main_v35 (F := Ideal) x7))

/-- The squared inverse root degree of every node. -/
abbrev deg2 (x7 : (⟨S2x600000, .i32⟩ : BufTy).Contents (Elt Ideal)) : (⟨S50000, .f32⟩ : BufTy).Contents (Elt Ideal) := val_main_v40 (F := Ideal) x7

/-- The first layer's aggregate is the aggregate of the first matrix product. -/
theorem v39_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) : val_main_v39 (F := Ideal) x0 x1 x7 = agg (val_main_v4 (F := Ideal) x0 x1) x7 := rfl

/-- The second layer's aggregate is the same function of the second matrix product: the host recomputes the
    sources, destinations and normalization from the same edge list by the same operations. -/
theorem v89_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) : val_main_v89 (F := Ideal) x0 x1 x2 x3 x7 = agg (val_main_v54 (F := Ideal) x0 x1 x2 x3 x7) x7 := rfl

/-- The degree scale is recomputed by the same operations too. -/
theorem v90_eq (x7 : (⟨S2x600000, .i32⟩ : BufTy).Contents (Elt Ideal)) : val_main_v90 (F := Ideal) x7 = deg2 x7 := rfl

/-- The first matrix product is the sum over the features. -/
theorem v4_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) :
    val_main_v4 (F := Ideal) x0 x1 = mm (x0) x1 := by
  funext i
  rw [val_main_v4_apply, mm_apply]
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

/-- The second matrix product, of the first layer's output. -/
theorem v54_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) :
    val_main_v54 (F := Ideal) x0 x1 x2 x3 x7 = mm (val_main_v49 (F := Ideal) x0 x1 x2 x7) x3 := by
  funext i
  rw [val_main_v54_apply, mm_apply]
  refine Finset.sum_congr rfl fun k _ => ?_
  have el : lidx_main_v54 i k = ix2 (i 0) k := funext fun a => Fin.ext (by
    match a with
    | ⟨0, _⟩ => rfl
    | ⟨1, _⟩ => rfl)
  have er : ridx_main_v54 i k = ix2 k (i 1) := funext fun a => Fin.ext (by
    match a with
    | ⟨0, _⟩ => rfl
    | ⟨1, _⟩ => rfl)
  rw [el, er]
  rfl

/-- The first layer, entry by entry. -/
theorem v49_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) :
    val_main_v49 (F := Ideal) x0 x1 x2 x7 = fuse (val_main_v39 (F := Ideal) x0 x1 x7) (val_main_v4 (F := Ideal) x0 x1) (val_main_v40 (F := Ideal) x7) x2 (x0) := by
  funext i
  obtain ⟨p, k, rfl⟩ : ∃ (p : Fin 50000) (k : Fin 128), i = ix2 p k := ⟨i 0, i 1, eq_ix2 i⟩
  rw [val_main_v49_apply, val_main_v48_apply, val_main_v47_apply, val_main_v44_apply, val_main_v43_apply, val_main_v42_apply, val_main_v41_apply, val_main_v46_apply, val_main_v45_apply, val_main_call0_v0_apply, val_main_call0_cst_apply]
  have e1 : idx_main_v41 (idx_main_v42 (ix2 p k)) = ix1 p := funext fun a => Fin.ext (by
    match a with
    | ⟨0, _⟩ => rfl)
  have e2 : idx_main_v45 (idx_main_v46 (ix2 p k)) = ix1 k := funext fun a => Fin.ext (by
    match a with
    | ⟨0, _⟩ => rfl)
  rw [e1, e2]
  rfl

/-- The second layer, entry by entry. -/
theorem v99_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) :
    val_main_v99 (F := Ideal) x0 x1 x2 x3 x4 x7 = fuse (val_main_v89 (F := Ideal) x0 x1 x2 x3 x7) (val_main_v54 (F := Ideal) x0 x1 x2 x3 x7) (val_main_v90 (F := Ideal) x7) x4 (val_main_v49 (F := Ideal) x0 x1 x2 x7) := by
  funext i
  obtain ⟨p, k, rfl⟩ : ∃ (p : Fin 50000) (k : Fin 128), i = ix2 p k := ⟨i 0, i 1, eq_ix2 i⟩
  rw [val_main_v99_apply, val_main_v98_apply, val_main_v97_apply, val_main_v94_apply, val_main_v93_apply, val_main_v92_apply, val_main_v91_apply, val_main_v96_apply, val_main_v95_apply, val_main_call1_v0_apply, val_main_call1_cst_apply]
  have e1 : idx_main_v91 (idx_main_v92 (ix2 p k)) = ix1 p := funext fun a => Fin.ext (by
    match a with
    | ⟨0, _⟩ => rfl)
  have e2 : idx_main_v95 (idx_main_v96 (ix2 p k)) = ix1 k := funext fun a => Fin.ext (by
    match a with
    | ⟨0, _⟩ => rfl)
  rw [e1, e2]
  rfl

/-- The head, as the column the host forms before flattening it. -/
theorem v103_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) :
    val_main_v103 (F := Ideal) x0 x1 x2 x3 x4 x5 x6 x7 = headCol (val_main_v99 (F := Ideal) x0 x1 x2 x3 x4 x7) x5 x6 := by
  funext i
  rw [val_main_v103_apply, val_main_v100_apply, val_main_v102_apply, val_main_v101_apply]
  have e : idx_main_v101 (idx_main_v102 i) = ix1 (0 : Fin 1) := funext fun a => Fin.ext (by
    match a with
    | ⟨0, _⟩ => rfl)
  rw [e]
  refine congrArg (· + x6 (ix1 (0 : Fin 1))) (Finset.sum_congr rfl fun k _ => ?_)
  have el : lidx_main_v100 i k = ix2 (i 0) k := funext fun a => Fin.ext (by
    match a with
    | ⟨0, _⟩ => rfl
    | ⟨1, _⟩ => rfl)
  have h1 : (i 1).val < 1 := (i 1).isLt
  have er : ridx_main_v100 i k = ix2 k (0 : Fin 1) := funext fun a => Fin.ext (by
    match a with
    | ⟨0, _⟩ => rfl
    | ⟨1, _⟩ => show (i 1).val = 0; omega)
  rw [el, er]
  rfl

/-- The reference's column before the final flattening is the network of the specification. -/
theorem column_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (x7 : (⟨S2x600000, .i32⟩ : BufTy).Contents (Elt Ideal)) :
    val_main_v103 (F := Ideal) x0 x1 x2 x3 x4 x5 x6 x7 = net (fun xw => agg xw x7) (deg2 x7) x0 x1 x2 x3 x4 x5 x6 := by
  have h49 : val_main_v49 (F := Ideal) x0 x1 x2 x7 = layer (fun xw => agg xw x7) (deg2 x7) x0 x1 x2 := by
    rw [v49_eq x0 x1 x2 x3 x4 x5 x6 x7, v39_eq x0 x1 x2 x3 x4 x5 x6 x7, v4_eq x0 x1 x2 x3 x4 x5 x6 x7]
    rfl
  have h99 : val_main_v99 (F := Ideal) x0 x1 x2 x3 x4 x7
      = layer (fun xw => agg xw x7) (deg2 x7) (layer (fun xw => agg xw x7) (deg2 x7) x0 x1 x2) x3 x4 := by
    rw [v99_eq x0 x1 x2 x3 x4 x5 x6 x7, v89_eq x0 x1 x2 x3 x4 x5 x6 x7, v90_eq, v54_eq x0 x1 x2 x3 x4 x5 x6 x7, h49]
    rfl
  rw [v103_eq x0 x1 x2 x3 x4 x5 x6 x7, h99]
  rfl

end Cert.ReferenceIdeal.RefNet

end
-- ==== Proof.LibRowOfColumn.lean ====
/-
  A column laid out as a row: an [a, 1] array cast to [1, a], read at an index written by coordinates. Both
  indices have the same row-major position, the a-coordinate.
-/
import Idealize.ShloMosaic.Lib.Pipeline.Value
import Idealize.ShloMosaic.Lib.ValueIdx

namespace Cert.LibRowOfColumn

open Idealize.ShloMosaic Idealize.ShloMosaic.ValueIdx

variable {α : Type}

/-- An `[a, 1]` array cast to `[1, a]` reads, at `(0, q)`, the operand at `(q, 0)`. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    rw [Nat.mul_one, Nat.add_zero, Nat.zero_mul, Nat.zero_add])

/-- An `[a]` array cast to `[a, 1]` reads, at `(q, 0)`, the operand at `q`. -/
theorem shapeCast_a_a1_apply {a : ℕ} (x : (⟨1, ![a]⟩ : Shape).Idx → α)
    (h : (⟨1, ![a]⟩ : Shape).ShapeCasts ⟨2, ![a, 1]⟩) (q : Fin a) :
    shapeCast ⟨2, ![a, 1]⟩ x h (ix2 q (0 : Fin 1)) = x (ix1 q) :=
  shapeCast_apply x h _ _ (by
    rw [Shape.rowMajor_val_two, Shape.rowMajor_val_one]
    show q.val = q.val * 1 + 0
    rw [Nat.mul_one, Nat.add_zero])

end Cert.LibRowOfColumn
-- ==== Proof.Chain.lean ====
/-
  The idealized kernel's result, boundary by boundary. Between the launch and the return the buffers' contents
  are a fold: a stretch of host operations maps them by the operations' functions, a kernel region replaces its
  output array by what its grid wrote and leaves the rest. Read back along the fold:

  - the first stretch computes, from the edge list alone, the sources, the destinations, the edges'
    normalization and the squared inverse root degree;
  - the first matrix-product region leaves x · W1;
  - the next stretch aggregates that product over the edges and lays the degree scale out as a column and the
    bias as a row;
  - the fused region leaves the first layer h = max (((agg + xw · d2) + b1) + x) 0;
  - the second matrix-product region leaves h · W2; the next stretch aggregates it and lays out the degree scale,
    the bias, the head weights and the head bias;
  - the last region leaves the head's column, and the last operation flattens it.

  Every host term met on the way is the term the reference's own host program has at the same place, so the
  aggregate and the degree scale are never opened. The result is the network of the specification, which is
  what the reference computes.
-/
import proofs.«151680_j78194174591508_2_alg».proof.Proof.Gen.KernelIdeal.Frame
import proofs.«151680_j78194174591508_2_alg».proof.Proof.Region0
import proofs.«151680_j78194174591508_2_alg».proof.Proof.Region1
import proofs.«151680_j78194174591508_2_alg».proof.Proof.Region2
import proofs.«151680_j78194174591508_2_alg».proof.Proof.Region3
import proofs.«151680_j78194174591508_2_alg».proof.Proof.RefSpec
import proofs.«151680_j78194174591508_2_alg».proof.Proof.LibRowOfColumn
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.Gcn Cert.LibMatProd
open Cert.ReferenceIdeal.RefNet (agg deg2)

variable (m : (ℓ : Loc nD τ sig) → Buf (Elt Ideal) ℓ) (ρ : Dev nD → PrngReg) (c : Dev nD)

/-! ## After the first stretch of host operations -/

theorem W1_v1 : W1 m ρ c (Proc.devRef .tc main_v1) = Cert.ReferenceIdeal.Read.val_main_v1 (F := Ideal) (m ((c : Thread nD τ).loc main_arg7)) := by
  after_results_simp <;> rfl
theorem W1_v3 : W1 m ρ c (Proc.devRef .tc main_v3) = Cert.ReferenceIdeal.Read.val_main_v3 (F := Ideal) (m ((c : Thread nD τ).loc main_arg7)) := by
  after_results_simp <;> rfl
theorem W1_v25 : W1 m ρ c (Proc.devRef .tc main_v25) = Cert.ReferenceIdeal.Read.val_main_v26 (F := Ideal) (m ((c : Thread nD τ).loc main_arg7)) := by
  after_results_simp <;> rfl
theorem W1_v26 : W1 m ρ c (Proc.devRef .tc main_v26) = deg2 (m ((c : Thread nD τ).loc main_arg7)) := by
  after_results_simp <;> rfl
theorem W1_arg0 : W1 m ρ c (Proc.devRef .tc main_arg0) = (m ((c : Thread nD τ).loc main_arg0)) := by
  after_results_simp <;> rfl
theorem W1_arg1 : W1 m ρ c (Proc.devRef .tc main_arg1) = (m ((c : Thread nD τ).loc main_arg1)) := by
  after_results_simp <;> rfl
theorem W1_arg2 : W1 m ρ c (Proc.devRef .tc main_arg2) = (m ((c : Thread nD τ).loc main_arg2)) := by
  after_results_simp <;> rfl
theorem W1_arg3 : W1 m ρ c (Proc.devRef .tc main_arg3) = (m ((c : Thread nD τ).loc main_arg3)) := by
  after_results_simp <;> rfl
theorem W1_arg4 : W1 m ρ c (Proc.devRef .tc main_arg4) = (m ((c : Thread nD τ).loc main_arg4)) := by
  after_results_simp <;> rfl
theorem W1_arg5 : W1 m ρ c (Proc.devRef .tc main_arg5) = (m ((c : Thread nD τ).loc main_arg5)) := by
  after_results_simp <;> rfl
theorem W1_arg6 : W1 m ρ c (Proc.devRef .tc main_arg6) = (m ((c : Thread nD τ).loc main_arg6)) := by
  after_results_simp <;> rfl

/-! ## After the first matrix product -/

theorem W2_v27 : W2 m ρ c (Proc.devRef .tc main_v27) = mm (m ((c : Thread nD τ).loc main_arg0)) (m ((c : Thread nD τ).loc main_arg1)) := by
  refine (W2_arr m ρ c 2).trans ((Cert.KernelIdeal.Lin0.final (V1 m ρ) c).trans ?_)
  show mm (W1 m ρ c (Proc.devRef .tc main_arg0)) (W1 m ρ c (Proc.devRef .tc main_arg1)) = _
  rw [W1_arg0 m ρ c, W1_arg1 m ρ c]
theorem W2_arg0 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (W1_arg0 m ρ c)))
theorem W2_v1 : W2 m ρ c (Proc.devRef .tc main_v1) = Cert.ReferenceIdeal.Read.val_main_v1 (F := Ideal) (m ((c : Thread nD τ).loc main_arg7)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg7)) :=
  (W2_of_ne m ρ c main_v3 (by decide)).trans (W1_v3 m ρ c)
theorem W2_v25 : W2 m ρ c (Proc.devRef .tc main_v25) = Cert.ReferenceIdeal.Read.val_main_v26 (F := Ideal) (m ((c : Thread nD τ).loc main_arg7)) :=
  (W2_of_ne m ρ c main_v25 (by decide)).trans (W1_v25 m ρ c)
theorem W2_v26 : W2 m ρ c (Proc.devRef .tc main_v26) = deg2 (m ((c : Thread nD τ).loc main_arg7)) :=
  (W2_of_ne m ρ c main_v26 (by decide)).trans (W1_v26 m ρ c)
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)

/-! ## After the second stretch: the aggregate of the product, the degree scale as a column, the bias as a row -/

theorem W3_v40 : W3 m ρ c (Proc.devRef .tc main_v40) = agg (mm (m ((c : Thread nD τ).loc main_arg0)) (m ((c : Thread nD τ).loc main_arg1))) (m ((c : Thread nD τ).loc main_arg7)) := by
  after_results_simp
  rw [W2_v3 m ρ c, W2_v27 m ρ c, W2_v1 m ρ c, W2_v25 m ρ c]
  rfl
theorem W3_v27 : W3 m ρ c (Proc.devRef .tc main_v27) = mm (m ((c : Thread nD τ).loc main_arg0)) (m ((c : Thread nD τ).loc main_arg1)) := by
  after_results_simp
  exact W2_v27 m ρ c
theorem W3_v41 : W3 m ρ c (Proc.devRef .tc main_v41) = shapeCast S50000x1 (deg2 (m ((c : Thread nD τ).loc main_arg7))) shapeCasts_S50000_S50000x1 := by
  after_results_simp
  rw [W2_v26 m ρ c]
  rfl
theorem W3_v42 : W3 m ρ c (Proc.devRef .tc main_v42) = shapeCast S1x128 (m ((c : Thread nD τ).loc main_arg2)) shapeCasts_S128_S1x128 := by
  after_results_simp
  rw [W2_arg2 m ρ c]
  rfl
theorem W3_arg0 : W3 m ρ c (Proc.devRef .tc main_arg0) = (m ((c : Thread nD τ).loc main_arg0)) := by
  after_results_simp
  exact W2_arg0 m ρ c
theorem W3_v1 : W3 m ρ c (Proc.devRef .tc main_v1) = Cert.ReferenceIdeal.Read.val_main_v1 (F := Ideal) (m ((c : Thread nD τ).loc main_arg7)) := by
  after_results_simp
  exact W2_v1 m ρ c
theorem W3_v3 : W3 m ρ c (Proc.devRef .tc main_v3) = Cert.ReferenceIdeal.Read.val_main_v3 (F := Ideal) (m ((c : Thread nD τ).loc main_arg7)) := by
  after_results_simp
  exact W2_v3 m ρ c
theorem W3_v25 : W3 m ρ c (Proc.devRef .tc main_v25) = Cert.ReferenceIdeal.Read.val_main_v26 (F := Ideal) (m ((c : Thread nD τ).loc main_arg7)) := by
  after_results_simp
  exact W2_v25 m ρ c
theorem W3_v26 : W3 m ρ c (Proc.devRef .tc main_v26) = deg2 (m ((c : Thread nD τ).loc main_arg7)) := by
  after_results_simp
  exact W2_v26 m ρ c
theorem W3_arg3 : W3 m ρ c (Proc.devRef .tc main_arg3) = (m ((c : Thread nD τ).loc main_arg3)) := by
  after_results_simp
  exact W2_arg3 m ρ c
theorem W3_arg4 : W3 m ρ c (Proc.devRef .tc main_arg4) = (m ((c : Thread nD τ).loc main_arg4)) := by
  after_results_simp
  exact W2_arg4 m ρ c
theorem W3_arg5 : W3 m ρ c (Proc.devRef .tc main_arg5) = (m ((c : Thread nD τ).loc main_arg5)) := by
  after_results_simp
  exact W2_arg5 m ρ c
theorem W3_arg6 : W3 m ρ c (Proc.devRef .tc main_arg6) = (m ((c : Thread nD τ).loc main_arg6)) := by
  after_results_simp
  exact W2_arg6 m ρ c

/-! ## After the fused first layer -/

theorem W4_v43 : W4 m ρ c (Proc.devRef .tc main_v43) = (layer (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2))) := by
  refine (W4_arr m ρ c 5).trans ((Cert.KernelIdeal.Fuse1.final (V3 m ρ) c).trans ?_)
  show fuseCols (W3 m ρ c (Proc.devRef .tc main_v40)) (W3 m ρ c (Proc.devRef .tc main_v27)) (W3 m ρ c (Proc.devRef .tc main_v41)) (W3 m ρ c (Proc.devRef .tc main_v42)) (W3 m ρ c (Proc.devRef .tc main_arg0)) = _
  rw [W3_v40 m ρ c, W3_v27 m ρ c, W3_v41 m ρ c, W3_v42 m ρ c, W3_arg0 m ρ c]
  exact fuseCols_eq _ _ _ _ _ (deg2 (m ((c : Thread nD τ).loc main_arg7))) (m ((c : Thread nD τ).loc main_arg2))
    (fun p => Cert.LibRowOfColumn.shapeCast_a_a1_apply _ _ p) (fun k => shapeCast_a_1a_apply _ _ (0 : Fin 1) k)
theorem W4_v1 : W4 m ρ c (Proc.devRef .tc main_v1) = Cert.ReferenceIdeal.Read.val_main_v1 (F := Ideal) (m ((c : Thread nD τ).loc main_arg7)) :=
  (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg7)) :=
  (W4_of_ne m ρ c main_v3 (by decide)).trans (W3_v3 m ρ c)
theorem W4_v25 : W4 m ρ c (Proc.devRef .tc main_v25) = Cert.ReferenceIdeal.Read.val_main_v26 (F := Ideal) (m ((c : Thread nD τ).loc main_arg7)) :=
  (W4_of_ne m ρ c main_v25 (by decide)).trans (W3_v25 m ρ c)
theorem W4_v26 : W4 m ρ c (Proc.devRef .tc main_v26) = deg2 (m ((c : Thread nD τ).loc main_arg7)) :=
  (W4_of_ne m ρ c main_v26 (by decide)).trans (W3_v26 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)

/-! ## After the second matrix product -/

theorem W5_v44 : W5 m ρ c (Proc.devRef .tc main_v44) = mm (layer (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2))) (m ((c : Thread nD τ).loc main_arg3)) := by
  refine (W5_arr m ρ c 2).trans ((Cert.KernelIdeal.Lin2.final (V4 m ρ) c).trans ?_)
  show mm (W4 m ρ c (Proc.devRef .tc main_v43)) (W4 m ρ c (Proc.devRef .tc main_arg3)) = _
  rw [W4_v43 m ρ c, W4_arg3 m ρ c]
theorem W5_v43 : W5 m ρ c (Proc.devRef .tc main_v43) = (layer (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2))) :=
  (W5_arr m ρ c 0).trans (((dat2 (V4 m ρ) c).arrAt_in 0 rfl _).trans ((A_eq2 (V4 m ρ) c 0).trans (W4_v43 m ρ c)))
theorem W5_v1 : W5 m ρ c (Proc.devRef .tc main_v1) = Cert.ReferenceIdeal.Read.val_main_v1 (F := Ideal) (m ((c : Thread nD τ).loc main_arg7)) :=
  (W5_of_ne m ρ c main_v1 (by decide)).trans (W4_v1 m ρ c)
theorem W5_v3 : W5 m ρ c (Proc.devRef .tc main_v3) = Cert.ReferenceIdeal.Read.val_main_v3 (F := Ideal) (m ((c : Thread nD τ).loc main_arg7)) :=
  (W5_of_ne m ρ c main_v3 (by decide)).trans (W4_v3 m ρ c)
theorem W5_v25 : W5 m ρ c (Proc.devRef .tc main_v25) = Cert.ReferenceIdeal.Read.val_main_v26 (F := Ideal) (m ((c : Thread nD τ).loc main_arg7)) :=
  (W5_of_ne m ρ c main_v25 (by decide)).trans (W4_v25 m ρ c)
theorem W5_v26 : W5 m ρ c (Proc.devRef .tc main_v26) = deg2 (m ((c : Thread nD τ).loc main_arg7)) :=
  (W5_of_ne m ρ c main_v26 (by decide)).trans (W4_v26 m ρ c)
theorem W5_arg4 : W5 m ρ c (Proc.devRef .tc main_arg4) = (m ((c : Thread nD τ).loc main_arg4)) :=
  (W5_of_ne m ρ c main_arg4 (by decide)).trans (W4_arg4 m ρ c)
theorem W5_arg5 : W5 m ρ c (Proc.devRef .tc main_arg5) = (m ((c : Thread nD τ).loc main_arg5)) :=
  (W5_of_ne m ρ c main_arg5 (by decide)).trans (W4_arg5 m ρ c)
theorem W5_arg6 : W5 m ρ c (Proc.devRef .tc main_arg6) = (m ((c : Thread nD τ).loc main_arg6)) :=
  (W5_of_ne m ρ c main_arg6 (by decide)).trans (W4_arg6 m ρ c)

/-! ## After the third stretch: the second aggregate and the layouts the last kernel is handed -/

theorem W6_v57 : W6 m ρ c (Proc.devRef .tc main_v57) = agg (mm (layer (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2))) (m ((c : Thread nD τ).loc main_arg3))) (m ((c : Thread nD τ).loc main_arg7)) := by
  after_results_simp
  rw [W5_v3 m ρ c, W5_v44 m ρ c, W5_v1 m ρ c, W5_v25 m ρ c]
  rfl
theorem W6_v44 : W6 m ρ c (Proc.devRef .tc main_v44) = mm (layer (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2))) (m ((c : Thread nD τ).loc main_arg3)) := by
  after_results_simp
  exact W5_v44 m ρ c
theorem W6_v43 : W6 m ρ c (Proc.devRef .tc main_v43) = (layer (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2))) := by
  after_results_simp
  exact W5_v43 m ρ c
theorem W6_v58 : W6 m ρ c (Proc.devRef .tc main_v58) = shapeCast S50000x1 (deg2 (m ((c : Thread nD τ).loc main_arg7))) shapeCasts_S50000_S50000x1 := by
  after_results_simp
  rw [W5_v26 m ρ c]
  rfl
theorem W6_v59 : W6 m ρ c (Proc.devRef .tc main_v59) = shapeCast S1x128 (m ((c : Thread nD τ).loc main_arg4)) shapeCasts_S128_S1x128 := by
  after_results_simp
  rw [W5_arg4 m ρ c]
  rfl
theorem W6_v60 : W6 m ρ c (Proc.devRef .tc main_v60) = shapeCast S1x128 (m ((c : Thread nD τ).loc main_arg5)) shapeCasts_S128x1_S1x128 := by
  after_results_simp
  rw [W5_arg5 m ρ c]
  rfl
theorem W6_v61 : W6 m ρ c (Proc.devRef .tc main_v61) = shapeCast S1x1 (m ((c : Thread nD τ).loc main_arg6)) shapeCasts_S1_S1x1 := by
  after_results_simp
  rw [W5_arg6 m ρ c]
  rfl

/-! ## After the fused second layer with the head, and the final flattening -/

theorem W7_v62 : W7 m ρ c (Proc.devRef .tc main_v62)
    = net (fun xw => agg xw (m ((c : Thread nD τ).loc main_arg7))) (deg2 (m ((c : Thread nD τ).loc main_arg7))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 7).trans ((Cert.KernelIdeal.Fuse3.final (V6 m ρ) c).trans ?_)
  show headCols (fuseCols (W6 m ρ c (Proc.devRef .tc main_v57)) (W6 m ρ c (Proc.devRef .tc main_v44)) (W6 m ρ c (Proc.devRef .tc main_v58)) (W6 m ρ c (Proc.devRef .tc main_v59)) (W6 m ρ c (Proc.devRef .tc main_v43)))
    (W6 m ρ c (Proc.devRef .tc main_v60)) (W6 m ρ c (Proc.devRef .tc main_v61)) = _
  rw [W6_v57 m ρ c, W6_v44 m ρ c, W6_v58 m ρ c, W6_v59 m ρ c, W6_v43 m ρ c, W6_v60 m ρ c, W6_v61 m ρ c]
  rw [fuseCols_eq _ _ _ _ _ (deg2 (m ((c : Thread nD τ).loc main_arg7))) (m ((c : Thread nD τ).loc main_arg4))
      (fun p => Cert.LibRowOfColumn.shapeCast_a_a1_apply _ _ p) (fun k => shapeCast_a_1a_apply _ _ (0 : Fin 1) k),
    headCols_eq _ _ _ (m ((c : Thread nD τ).loc main_arg5)) (m ((c : Thread nD τ).loc main_arg6))
      (fun k => Cert.LibRowOfColumn.shapeCast_a1_1a_apply _ _ k) (shapeCast_a_1a_apply _ _ (0 : Fin 1) (0 : Fin 1))]
  rfl

/-- The kernel's result buffer ends at the reference's own last stage of the same arguments. -/
theorem W8_v63 : W8 m ρ c (Proc.devRef .tc main_v63)
    = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_results_simp
  rw [W7_v62 m ρ c]
  unfold Cert.ReferenceIdeal.Read.val_main_v104
  rw [Cert.ReferenceIdeal.RefNet.column_eq]
  rfl

end Cert.KernelIdeal.Chain

end
-- ==== Proof.lean ====
/-
  A two-layer graph convolution with a linear head, over 50000 nodes, 128 features and 600000 edges: the kernel
  program (four tiled kernels — two matrix products, a fused layer, a fused layer with the head — among host
  gathers and scatter-adds over the edges) against a reference written in plain array operations.

  On the extended reals both compute the same function of the arguments. A tiled matrix product is the whole
  product (a band of rows of a product is the product of the band). A fused layer forms
  max (((agg + xw · d2) + b) + res) 0 entry by entry, in the reference's own order of additions, and the head is
  the same sum over the features plus the bias; the kernel is handed the degree scale, the biases and the head
  weights re-laid as columns and rows, which changes where an entry is read, not its value. The aggregate and
  the degree scale are computed by both programs with the same host operations from the same edge list and are
  compared as whole terms. No law beyond reading the two programs at an index is used, so the precondition is
  never opened.

  The three frames: the two kernel programs' are the generated frame proofs; the reference's is its run with the
  result dropped. The idealization rewrote no operation, so there is nothing to preserve.
-/
import proofs.«151680_j78194174591508_2_alg».proof.Defs
import proofs.«151680_j78194174591508_2_alg».proof.Proof.Gen.Kernel
import proofs.«151680_j78194174591508_2_alg».proof.Proof.Gen.Kernel.Frame
import proofs.«151680_j78194174591508_2_alg».proof.Proof.Gen.KernelIdeal
import proofs.«151680_j78194174591508_2_alg».proof.Proof.Gen.KernelIdeal.Frame
import proofs.«151680_j78194174591508_2_alg».proof.Proof.Gen.ReferenceIdeal
import proofs.«151680_j78194174591508_2_alg».proof.Proof.Gen.Pre_finite_inputs
import proofs.«151680_j78194174591508_2_alg».proof.Proof.Gen.ReferenceIdeal.Run
import proofs.«151680_j78194174591508_2_alg».proof.Proof.Gen.ReferenceIdeal.Read
import proofs.«151680_j78194174591508_2_alg».proof.Proof.KRun
import proofs.«151680_j78194174591508_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the network's value of the arguments: the kernel by its run read
    back boundary by boundary, the reference by its own run, whose last stage is that value by definition. -/
theorem algebraic : Cert.algebraic_KernelIdeal_ReferenceIdeal := by
  intro m ρ m' ρ' _ hagree
  refine ⟨fun c => Cert.ReferenceIdeal.Read.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W8_v63 m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v104_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
